-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x524288x128 : Shape := ⟨3, ![3, 524288, 128]⟩
abbrev S128x128 : Shape := ⟨2, ![128, 128]⟩
abbrev S128 : Shape := ⟨1, ![128]⟩
abbrev S_ : Shape := ⟨0, ![]⟩

class Facts : Prop where
  bcast_S_S3x524288x128 : S_.BroadcastsInDim S3x524288x128 (![] : Fin 0 → Fin S3x524288x128.rank)
  reducesTo_S3x524288x128_S_d0_1_2 : S3x524288x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S3x524288x128 .f32) (main_arg1 : FVec F S128x128 .f32) (main_arg2 : FVec F S128 .f32) : IVec S_ 1 :=
  let main_v0 : FVec F S3x524288x128 .f32 := Host.absf main_arg0
  let main_cst : FVec F S_ .f32 := constant S_ .f32 0x7F800000#32
  let main_v1 : FVec F S3x524288x128 .f32 := broadcastInDim S3x524288x128 ![] bcast_S_S3x524288x128 main_cst
  let main_v2 : IVec S3x524288x128 1 := cmpf .olt main_v0 main_v1
  let main_c : IVec S_ 1 := constantI S_ 1 1#1
  let main_v3 : IVec S_ 1 := (fun x v => Host.reduce IntOp.andi x v reducesTo_S3x524288x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S3x524288x128 : Shape := ⟨3, ![3, 524288, 128]⟩
abbrev S128x128 : Shape := ⟨2, ![128, 128]⟩
abbrev S128 : Shape := ⟨1, ![128]⟩
abbrev S1x128 : Shape := ⟨2, ![1, 128]⟩
abbrev S3x4096x128 : Shape := ⟨3, ![3, 4096, 128]⟩
abbrev S1x4096x128 : Shape := ⟨3, ![1, 4096, 128]⟩
abbrev S4096x128 : Shape := ⟨2, ![4096, 128]⟩

abbrev nBuf : Space → Nat
  | .hbm => 5
  | .vmem => 6
  | .smem => 0
  | _ => 0

abbrev bufTy : (tb : Table) → Fin (tcTables nBuf tb) → BufTy
  | .hbm, ⟨0, _⟩ => ⟨S3x524288x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S3x524288x128, .f32⟩
  | .local _ .vmem, ⟨0, _⟩ => ⟨S3x4096x128, .f32⟩
  | .local _ .vmem, ⟨1, _⟩ => ⟨S3x4096x128, .f32⟩
  | .local _ .vmem, ⟨2, _⟩ => ⟨S128x128, .f32⟩
  | .local _ .vmem, ⟨3, _⟩ => ⟨S1x128, .f32⟩
  | .local _ .vmem, ⟨4, _⟩ => ⟨S3x4096x128, .f32⟩
  | .local _ .vmem, ⟨5, _⟩ => ⟨S3x4096x128, .f32⟩
  | _, _ => ⟨S3x524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S3x4096x128_S1x4096x128_0_0_0 : ∀ a, (![0, 0, 0] : Fin 3 → Nat) a + S1x4096x128.size a ≤ S3x4096x128.size a
  h_S1x4096x128 : 0 < S1x4096x128.numel
  shapeCasts_S1x4096x128_S4096x128 : S1x4096x128.ShapeCasts S4096x128
  inb_S3x4096x128_S1x4096x128_1_0_0 : ∀ a, (![1, 0, 0] : Fin 3 → Nat) a + S1x4096x128.size a ≤ S3x4096x128.size a
  inb_S3x4096x128_S1x4096x128_2_0_0 : ∀ a, (![2, 0, 0] : Fin 3 → Nat) a + S1x4096x128.size a ≤ S3x4096x128.size a
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x4096x128 : S4096x128.ShapeCasts S1x4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096x128.size a ≤ S3x524288x128.size a
  hwx0_0 : ∀ i : grid0.Coords, EltTy.bits .f32 = 32 ∨ (Rect.block (s := S3x524288x128) S3x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4096x128.size a ≤ S3x524288x128.size a
  hwx0_3 : ∀ i : grid0.Coords, EltTy.bits .f32 = 32 ∨ (Rect.block (s := S3x524288x128) S3x4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S3x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x524288x128 : Shape := ⟨3, ![3, 524288, 128]⟩
abbrev S128x128 : Shape := ⟨2, ![128, 128]⟩
abbrev S128 : Shape := ⟨1, ![128]⟩
abbrev S_ : Shape := ⟨0, ![]⟩
abbrev S524288x128 : Shape := ⟨2, ![524288, 128]⟩
abbrev S1x524288x128 : Shape := ⟨3, ![1, 524288, 128]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S3x524288x128, .f32⟩
  | .hbm, ⟨1, _⟩ => ⟨S128x128, .f32⟩
  | .hbm, ⟨2, _⟩ => ⟨S128, .f32⟩
  | .hbm, ⟨3, _⟩ => ⟨S_, .f32⟩
  | .hbm, ⟨4, _⟩ => ⟨S524288x128, .f32⟩
  | .hbm, ⟨5, _⟩ => ⟨S1x524288x128, .f32⟩
  | .hbm, ⟨6, _⟩ => ⟨S3x524288x128, .f32⟩
  | .hbm, ⟨7, _⟩ => ⟨S3x524288x128, .f32⟩
  | .hbm, ⟨8, _⟩ => ⟨S_, .f32⟩
  | .hbm, ⟨9, _⟩ => ⟨S3x524288x128, .f32⟩
  | .hbm, ⟨10, _⟩ => ⟨S3x524288x128, .f32⟩
  | .hbm, ⟨11, _⟩ => ⟨S3x524288x128, .f32⟩
  | .hbm, ⟨12, _⟩ => ⟨S1x1x128, .f32⟩
  | .hbm, ⟨13, _⟩ => ⟨S3x524288x128, .f32⟩
  | .hbm, ⟨14, _⟩ => ⟨S3x524288x128, .f32⟩
  | .hbm, ⟨15, _⟩ => ⟨S3x524288x128, .f32⟩
  | _, _ => ⟨S3x524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S3x524288x128_S524288x128_d0 : S3x524288x128.ReducesTo [0] S524288x128
  h_S_ : 0 < S_.numel
  bcast_S524288x128_S1x524288x128_1_2 : S524288x128.BroadcastsInDim S1x524288x128 (![1, 2] : Fin 2 → Fin S1x524288x128.rank)
  bcast_S1x524288x128_S3x524288x128_0_1_2 : S1x524288x128.BroadcastsInDim S3x524288x128 (![0, 1, 2] : Fin 3 → Fin S3x524288x128.rank)
  bcast_S_S3x524288x128 : S_.BroadcastsInDim S3x524288x128 (![] : Fin 0 → Fin S3x524288x128.rank)
  bcast_S128_S1x1x128_2 : S128.BroadcastsInDim S1x1x128 (![2] : Fin 1 → Fin S1x1x128.rank)
  bcast_S1x1x128_S3x524288x128_0_1_2 : S1x1x128.BroadcastsInDim S3x524288x128 (![0, 1, 2] : Fin 3 → Fin S3x524288x128.rank)
  dot_S3x524288x128_S128x128_S3x524288x128_2_0_01_1_n_n_wf : DotDims.WF S3x524288x128 S128x128 S3x524288x128 [2] [0] [0, 1] [1] [] []

variable [Facts₀]

def dot_S3x524288x128_S128x128_S3x524288x128_2_0_01_1_n_n : DotDims S3x524288x128 S128x128 S3x524288x128 where
  lhsContracting := [2]
  rhsContracting := [0]
  lhsNonContracting := [0, 1]
  rhsNonContracting := [1]
  lhsBatch := []
  rhsBatch := []
  wf := dot_S3x524288x128_S128x128_S3x524288x128_2_0_01_1_n_n_wf

class Facts : Prop extends Facts₀ where

variable [Facts]
-- ==== Proof.Message.lean ====
/-
  The function both programs compute, on the extended reals.

  Three agents each hold a state of `n` rows and 128 features: `X a p k`. For agent `a` and row `p` the
  message is the mean of the OTHER two agents' rows,
      others a p k = ((X 0 p k + X 1 p k + X 2 p k) - X a p k) * (1/2),
  passed through a dense layer and added back to the agent's own row:
      out a p e = X a p e + ((∑ k, others a p k * W k e) + b e).
  The definition is over a row count `n` so that it reads both a whole array (n = 524288) and one block of
  rows (n = 4096): a row's output depends on that row of the three agents only, so a block of the result is
  the same function of the same block of the argument (`outAt_rows`).

  The one law that is not a re-association: dividing by the number 2 is multiplying by the number 1/2, on every
  extended real (`div_two`). The sum over the three agents is spelt left to right, `(X 0 + X 1) + X 2`
  (`sum_agents` says that is the sum over `Fin 3` started from zero). No finiteness of the inputs is used.
-/
import Idealize.ShloMosaic.PureOps.Ideal
import Idealize.ShloMosaic.PureOps.Ideal.Laws
import Idealize.ShloMosaic.Lib.ValueIdx

noncomputable section

namespace Cert.Message

open Idealize.ShloMosaic Idealize.ShloMosaic.ValueIdx

/-! ## The two constants -/

/-- The pattern `0x3F000000` denotes the real number 1/2. -/
theorem ofBits_half : Ideal.ofBits .f32 0x3F000000#32 = ((1 / 2 : ℝ) : EReal) := by
  simp [Ideal.ofBits, Ideal.ieee, -EReal.coe_mul]; norm_num

/-- The pattern `0x40000000` denotes the real number 2. -/
theorem ofBits_two : Ideal.ofBits .f32 0x40000000#32 = ((2 : ℝ) : EReal) := by
  simp [Ideal.ofBits, Ideal.ieee, -EReal.coe_mul]; norm_num

/-- Halving: the quotient by 2 is the product with 1/2, at the infinities too. -/
theorem div_two (y : EReal) :
    Ideal.div y (Ideal.ofBits .f32 0x40000000#32) = y * Ideal.ofBits .f32 0x3F000000#32 := by
  rw [ofBits_two, ofBits_half]
  exact Ideal.div_coe (by norm_num) y

/-- The sum over the three agents, started from the zero pattern, is the left-to-right sum. -/
theorem sum_agents (f : Fin 3 → EReal) :
    Ideal.ofBits .f32 0x00000000#32 + ∑ a : Fin 3, f a = (f 0 + f 1) + f 2 := by
  rw [Ideal.ofBits_zero_f32, zero_add, Fin.sum_univ_three]

/-! ## The function -/

/-- Half of what the two OTHER agents hold at row `p`, feature `k`: the three agents' sum less agent `a`'s own. -/
def others (n : Nat) (X : (⟨3, ![3, n, 128]⟩ : Shape).Idx → EReal) (a : Fin 3) (p : Fin n) (k : Fin 128) : EReal :=
  (((X (ix3 (0 : Fin 3) p k) + X (ix3 (1 : Fin 3) p k)) + X (ix3 (2 : Fin 3) p k)) - X (ix3 a p k))
    * Ideal.ofBits .f32 0x3F000000#32

/-- Agent `a`'s new row `p` at feature `e`: its own state plus the dense layer of the others' mean plus the bias. -/
def outAt (n : Nat) (X : (⟨3, ![3, n, 128]⟩ : Shape).Idx → EReal) (W : (⟨2, ![128, 128]⟩ : Shape).Idx → EReal)
    (b : Fin 128 → EReal) (a : Fin 3) (p : Fin n) (e : Fin 128) : EReal :=
  X (ix3 a p e) + ((∑ k : Fin 128, others n X a p k * W (ix2 k e)) + b e)

/-- The whole result, index by index. -/
def out (n : Nat) (X : (⟨3, ![3, n, 128]⟩ : Shape).Idx → EReal) (W : (⟨2, ![128, 128]⟩ : Shape).Idx → EReal)
    (b : Fin 128 → EReal) : (⟨3, ![3, n, 128]⟩ : Shape).Idx → EReal :=
  fun i => outAt n X W b (i 0) (i 1) (i 2)

theorem out_ix3 (n : Nat) (X : (⟨3, ![3, n, 128]⟩ : Shape).Idx → EReal) (W : (⟨2, ![128, 128]⟩ : Shape).Idx → EReal)
    (b : Fin 128 → EReal) (a : Fin 3) (p : Fin n) (e : Fin 128) :
    out n X W b (ix3 a p e) = outAt n X W b a p e := rfl

/-- ROWS ARE INDEPENDENT. If row `r` of a block `x` holds row `R` of `X` for each of the three agents (`hx`), with the
    same weights and bias, then the block's result at row `r` is the whole result at row `R`. -/
theorem outAt_rows (n N : Nat) (x : (⟨3, ![3, n, 128]⟩ : Shape).Idx → EReal) (X : (⟨3, ![3, N, 128]⟩ : Shape).Idx → EReal)
    (w W : (⟨2, ![128, 128]⟩ : Shape).Idx → EReal) (b B : Fin 128 → EReal)
    (r : Fin n) (R : Fin N)
    (hx : ∀ (a : Fin 3) (k : Fin 128), x (ix3 a r k) = X (ix3 a R k))
    (hw : ∀ k e : Fin 128, w (ix2 k e) = W (ix2 k e)) (hb : ∀ e, b e = B e) (a : Fin 3) (e : Fin 128) :
    outAt n x w b a r e = outAt N X W B a R e := by
  unfold outAt others
  rw [hx a e, hb e]
  refine congrArg (fun s => X (ix3 a R e) + (s + B e)) (Finset.sum_congr rfl fun k _ => ?_)
  rw [hx 0 k, hx 1 k, hx 2 k, hx a k, hw k e]

end Cert.Message

end
-- ==== Proof.ReferenceValue.lean ====
/-
  The reference, read index by index, is the message-passing function of `Message.lean`.

  Its thirteen host operations compose to: the sum of the three agents' states (a reduction over the agent axis,
  started from zero), broadcast back over the agents; less the agent's own state; divided by 2; a matrix product
  with `W` over the feature axis; plus the bias broadcast over agents and rows; plus the agent's own state. Each
  operation is read at an index by the generated lemma for it; what is left is to name the composed index maps
  by coordinates (agent, row, feature), to spell the three-term sum left to right, and to turn the quotient by 2
  into the product with 1/2.
-/
import proofs.«141589_j60421599920764_2_alg».proof.Proof.Gen.ReferenceIdeal.Read
import proofs.«141589_j60421599920764_2_alg».proof.Proof.Message

noncomputable section

namespace Cert.ReferenceIdeal.RefValue

open Cert.ReferenceIdeal Cert.ReferenceIdeal.Read Idealize.ShloMosaic Idealize.ShloMosaic.ValueIdx

/-! ## The composed index maps, by coordinates -/

/-- The matrix product's left factor at output (a, p, e) and contraction position k sits at (a, p, k). -/
theorem left_idx (a : Fin 3) (p : Fin 524288) (e k : Fin 128) : lidx_main_v6 (ix3 a p e) k = ix3 a p k :=
  funext fun d => Fin.ext (by match d with | ⟨0, _⟩ => rfl | ⟨1, _⟩ => rfl | ⟨2, _⟩ => rfl)

/-- Its right factor sits at (k, e). -/
theorem right_idx (a : Fin 3) (p : Fin 524288) (e k : Fin 128) : ridx_main_v6 (ix3 a p e) k = ix2 k e :=
  funext fun d => Fin.ext (by match d with | ⟨0, _⟩ => rfl | ⟨1, _⟩ => rfl)

/-- The bias, broadcast twice, is read at feature e. -/
theorem bias_idx (a : Fin 3) (p : Fin 524288) (e : Fin 128) : idx_main_v7 (idx_main_v8 (ix3 a p e)) = ix1 e :=
  funext fun d => Fin.ext (by match d with | ⟨0, _⟩ => rfl)

/-- The agents' sum, broadcast back over the agents, is read at (a', p, k) for each summed agent a'. -/
theorem agents_idx (a : Fin 3) (p : Fin 524288) (k : Fin 128) (a' : Fin 3) :
    idx_main_v0 (idx_main_v1 (idx_main_v2 (ix3 a p k))) a' = ix3 a' p k :=
  funext fun d => Fin.ext (by match d with | ⟨0, _⟩ => rfl | ⟨1, _⟩ => rfl | ⟨2, _⟩ => rfl)

/-! ## The reference's result -/

/-- The last stage of the reference is `Message.out` of the three arguments. -/
theorem result_eq (X : FVec Ideal S3x524288x128 .f32) (W : FVec Ideal S128x128 .f32) (B : FVec Ideal S128 .f32) :
    val_main_v10 (F := Ideal) X W B = Cert.Message.out 524288 X W (fun e => B (ix1 e)) := by
  funext i
  obtain ⟨a, p, e, rfl⟩ : ∃ (a : Fin 3) (p : Fin 524288) (e : Fin 128), i = ix3 a p e := ⟨i 0, i 1, i 2, eq_ix3 i⟩
  rw [Cert.Message.out_ix3, val_main_v10_apply, val_main_v9_apply, val_main_v6_apply, val_main_v8_apply,
    val_main_v7_apply, bias_idx]
  unfold Cert.Message.outAt Cert.Message.others
  simp only [Ideal.addf_def]
  refine congrArg (fun s => X (ix3 a p e) + (s + B (ix1 e))) (Finset.sum_congr rfl fun k _ => ?_)
  rw [left_idx, right_idx, val_main_v5_apply, val_main_v3_apply, val_main_v2_apply, val_main_v1_apply,
    val_main_v0_apply, val_main_v4_apply, val_main_cst_0_apply, val_main_cst_apply]
  simp only [agents_idx, Ideal.hostDivf_def, Ideal.subf_def, Ideal.ofBits_def]
  rw [Cert.Message.sum_agents, Cert.Message.div_two]

end Cert.ReferenceIdeal.RefValue

end
-- ==== Proof.BlockValue.lean ====
/-
  What the kernel body leaves in the output block, as the message-passing function of the three input blocks.

  At a grid point the body holds a block `x0` of 4096 rows of the three agents' states, the whole weight matrix
  `x1` and the bias row `x2`. It stores three pieces, one per agent: rows `(a, ·, ·)` of the output block are
      x0[a] + (((x0[0] + x0[1] + x0[2]) - x0[a]) * (1/2)) · x1 + x2,
  the product a matrix product into a zero accumulator. The three payloads are three spellings of one term
  (`rows_apply` reads it at an index for any agent); the matrix product at an index is the sum over the 128
  features of the products (`rows_matmul`); the leading unit axis of a piece and the loads through the agents'
  rectangles are read by coordinates. Since the three pieces tile the block and each is the restriction of
  `Message.out 4096 x0 x1 x2[0]`, so is what the stores leave (`block_eq`).
-/
import proofs.«141589_j60421599920764_2_alg».proof.Proof.Gen.KernelIdeal.Frame
import proofs.«141589_j60421599920764_2_alg».proof.Proof.Message
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The matrix product of a block of rows with the weights -/

theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_feature (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

theorem rhs_feature (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

theorem rhs_col (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Into the zero accumulator, the product of rows `L` with the matrix `R` at (r, e) is `∑ k, L r k * R k e`. -/
theorem rows_matmul (L : FVec Ideal S4096x128 .bf16) (R : FVec Ideal S128x128 .bf16) (r : Fin 4096) (e : Fin 128) :
    matmul dot_S4096x128_S128x128_S4096x128_1_0_0_1_n_n none L R (constant (F := Ideal) S4096x128 .f32 0x00000000#32) (ix2 r e)
      = ∑ k : Fin 128, L (ix2 r k) * R (ix2 k e) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r e) ((contrEquiv1 dot_S4096x128_S128x128_S4096x128_1_0_0_1_n_n 128 rfl rfl).symm k) = ix2 r k :=
    funext fun a => Fin.ext (by
      match a with
      | ⟨0, _⟩ => exact lhs_row _ _
      | ⟨1, _⟩ => exact (lhs_feature _ _).trans hk)
  have er : dot_S4096x128_S128x128_S4096x128_1_0_0_1_n_n.rhsIdx (ix2 r e) ((contrEquiv1 dot_S4096x128_S128x128_S4096x128_1_0_0_1_n_n 128 rfl rfl).symm k) = ix2 k e :=
    funext fun a => Fin.ext (by
      match a with
      | ⟨0, _⟩ => exact (rhs_feature _ _).trans hk
      | ⟨1, _⟩ => exact rhs_col _ _)
  rw [el, er]

/-! ## One agent's rows, read at an index -/

/-- The term every one of the three stores writes, for the agent whose rows are `va`: at (·, r, e) it is
    `va r e + ((∑ k, ((tot r k - va r k) * (1/2)) * w k e) + bias r e)`. -/
theorem agent_rows_apply (tot va : FVec Ideal S4096x128 .f32) (w : FVec Ideal S128x128 .bf16)
    (bias : FVec Ideal S4096x128 .f32) (hc : S4096x128.ShapeCasts S1x4096x128) (hb : FTy.bits .bf16 < FTy.bits .f32)
    (u : Fin 1) (r : Fin 4096) (e : Fin 128) :
    shapeCast S1x4096x128 (addf va (addf (matmul dot_S4096x128_S128x128_S4096x128_1_0_0_1_n_n none
        (truncf .bf16 (mulf (subf tot va) (broadcast S4096x128 (Scalar.ofBits (F := Ideal) .f32 0x3F000000#32))) hb) w
        (constant (F := Ideal) S4096x128 .f32 0x00000000#32)) bias)) hc (ix3 u r e)
      = va (ix2 r e) + ((∑ k : Fin 128, ((tot (ix2 r k) - va (ix2 r k)) * Ideal.ofBits .f32 0x3F000000#32) * w (ix2 k e))
          + bias (ix2 r e)) := by
  rw [shapeCast_ab_1ab_apply, addf_apply, addf_apply, rows_matmul]
  rfl

/-- The three agents' rows of a block, summed left to right. -/
theorem total_apply (v0 v1 v2 : Vec Ideal S1x4096x128 .f32) (r : Fin 4096) (k : Fin 128) :
    k0_pay3 (F := Ideal) v0 v1 v2 (ix2 r k)
      = (v0 (ix3 (0 : Fin 1) r k) + v1 (ix3 (0 : Fin 1) r k)) + v2 (ix3 (0 : Fin 1) r k) := by
  show addf (F := Ideal) (φ := .f32)
      (addf (F := Ideal) (φ := .f32) (shapeCast S4096x128 v0 shapeCasts_S1x4096x128_S4096x128)
        (shapeCast S4096x128 v1 shapeCasts_S1x4096x128_S4096x128))
      (shapeCast S4096x128 v2 shapeCasts_S1x4096x128_S4096x128) (ix2 r k) = _
  rw [addf_apply, addf_apply, shapeCast_1ab_ab_apply, shapeCast_1ab_ab_apply, shapeCast_1ab_ab_apply]

/-- One row, recast to its own shape twice and broadcast over the 4096 rows, reads the row at every row. -/
theorem row_broadcast_apply (bb : Vec Ideal S1x128 .f32) (h1 h2 : S1x128.ShapeCasts S1x128) (h3 : S1x128.Broadcasts S4096x128)
    (r : Fin 4096) (e : Fin 128) :
    broadcastTo S4096x128 (shapeCast S1x128 (shapeCast S1x128 bb h1) h2) h3 (ix2 r e) = bb (ix2 (0 : Fin 1) e) := by
  rw [broadcastTo_1b_ab_apply, shapeCast_self, shapeCast_self]

/-- The bias row, broadcast over the 4096 rows. -/
theorem bias_apply (bb : Vec Ideal S1x128 .f32) (r : Fin 4096) (e : Fin 128) :
    k0_pay5 (F := Ideal) bb (ix2 r e) = bb (ix2 (0 : Fin 1) e) :=
  row_broadcast_apply bb shapeCasts_S1x128_S1x128 shapeCasts_S1x128_S1x128 broadcasts_S1x128_S4096x128 r e

/-! ## The loads through the agents' rectangles -/

theorem emb_agent0 (u : Fin 1) (r : Fin 4096) (k : Fin 128) : r0_0.emb (ix3 u r k) = ix3 (0 : Fin 3) r k :=
  funext fun d => Fin.ext (by
    have hu := u.isLt
    match d with
    | ⟨0, _⟩ => show 0 + 1 * u.val = 0; omega
    | ⟨1, _⟩ => show 0 + 1 * r.val = r.val; omega
    | ⟨2, _⟩ => show 0 + 1 * k.val = k.val; omega)

theorem emb_agent1 (u : Fin 1) (r : Fin 4096) (k : Fin 128) : r0_1.emb (ix3 u r k) = ix3 (1 : Fin 3) r k :=
  funext fun d => Fin.ext (by
    have hu := u.isLt
    match d with
    | ⟨0, _⟩ => show 1 + 1 * u.val = 1; omega
    | ⟨1, _⟩ => show 0 + 1 * r.val = r.val; omega
    | ⟨2, _⟩ => show 0 + 1 * k.val = k.val; omega)

theorem emb_agent2 (u : Fin 1) (r : Fin 4096) (k : Fin 128) : r0_2.emb (ix3 u r k) = ix3 (2 : Fin 3) r k :=
  funext fun d => Fin.ext (by
    have hu := u.isLt
    match d with
    | ⟨0, _⟩ => show 2 + 1 * u.val = 2; omega
    | ⟨1, _⟩ => show 0 + 1 * r.val = r.val; omega
    | ⟨2, _⟩ => show 0 + 1 * k.val = k.val; omega)

theorem ld_agent0 (x0 : Vec Ideal S3x4096x128 .f32) (u : Fin 1) (r : Fin 4096) (k : Fin 128) :
    View.ld x0 r0_0 (ix3 u r k) = x0 (ix3 (0 : Fin 3) r k) := congrArg x0 (emb_agent0 u r k)
theorem ld_agent1 (x0 : Vec Ideal S3x4096x128 .f32) (u : Fin 1) (r : Fin 4096) (k : Fin 128) :
    View.ld x0 r0_1 (ix3 u r k) = x0 (ix3 (1 : Fin 3) r k) := congrArg x0 (emb_agent1 u r k)
theorem ld_agent2 (x0 : Vec Ideal S3x4096x128 .f32) (u : Fin 1) (r : Fin 4096) (k : Fin 128) :
    View.ld x0 r0_2 (ix3 u r k) = x0 (ix3 (2 : Fin 3) r k) := congrArg x0 (emb_agent2 u r k)

theorem zeros2 : (![0, 0] : Fin 2 → Nat) = fun _ => 0 := funext fun a => by fin_cases a <;> rfl

/-- The weights and the bias row are loaded whole. -/
theorem ld_weights (x1 : Vec Ideal S128x128 .f32) : View.ld x1 r0_3 = x1 :=
  View.ld_unit_zero (S := S128x128) zeros2 _ x1
theorem ld_bias (x2 : Vec Ideal S1x128 .f32) : View.ld x2 r0_4 = x2 :=
  View.ld_unit_zero (S := S1x128) zeros2 _ x2

/-! ## The block the body leaves -/

/-- The function of the three input blocks that the output block ends holding. -/
abbrev blockOut (x0 : Vec Ideal S3x4096x128 .f32) (x1 : Vec Ideal S128x128 .f32) (x2 : Vec Ideal S1x128 .f32) :
    Vec Ideal S3x4096x128 .f32 :=
  Cert.Message.out 4096 x0 x1 (fun e => x2 (ix2 (0 : Fin 1) e))

/-- One agent's rows, from the loads of the block: for the agent `a` whose rows `va` are (`ha`), the stored term at
    (·, r, e) is the message-passing function of the block at (a, r, e). -/
theorem rows_apply (x0 : Vec Ideal S3x4096x128 .f32) (x1 : Vec Ideal S128x128 .f32) (x2 : Vec Ideal S1x128 .f32)
    (va : Vec Ideal S1x4096x128 .f32) (a : Fin 3)
    (ha : ∀ (u : Fin 1) (r : Fin 4096) (k : Fin 128), va (ix3 u r k) = x0 (ix3 a r k))
    (hc : S4096x128.ShapeCasts S1x4096x128) (hd : S1x4096x128.ShapeCasts S4096x128) (hb : FTy.bits .bf16 < FTy.bits .f32)
    (u : Fin 1) (r : Fin 4096) (e : Fin 128) :
    shapeCast S1x4096x128 (addf (F := Ideal) (φ := .f32) (shapeCast S4096x128 va hd) (addf (matmul dot_S4096x128_S128x128_S4096x128_1_0_0_1_n_n none
        (truncf .bf16 (mulf (subf (k0_pay3 (F := Ideal) (View.ld x0 r0_0) (View.ld x0 r0_1) (View.ld x0 r0_2)) (shapeCast S4096x128 va hd))
          (broadcast S4096x128 (Scalar.ofBits (F := Ideal) .f32 0x3F000000#32))) hb) (k0_pay4 (F := Ideal) (View.ld x1 r0_3))
        (constant (F := Ideal) S4096x128 .f32 0x00000000#32)) (k0_pay5 (F := Ideal) (View.ld x2 r0_4)))) hc (ix3 u r e)
      = Cert.Message.outAt 4096 x0 x1 (fun e => x2 (ix2 (0 : Fin 1) e)) a r e := by
  rw [agent_rows_apply]
  unfold Cert.Message.outAt Cert.Message.others
  rw [shapeCast_1ab_ab_apply, ha, bias_apply, ld_bias]
  refine congrArg (fun s => x0 (ix3 a r e) + (s + x2 (ix2 (0 : Fin 1) e))) (Finset.sum_congr rfl fun k _ => ?_)
  rw [total_apply, shapeCast_1ab_ab_apply, ha, ld_agent0, ld_agent1, ld_agent2, ld_weights]
  rfl

/-- Agent 0's store. -/
theorem piece0 (x0 : Vec Ideal S3x4096x128 .f32) (x1 : Vec Ideal S128x128 .f32) (x2 : Vec Ideal S1x128 .f32)
    (x : S1x4096x128.Idx) :
    k0_pay6 (F := Ideal) (View.ld x0 r0_0) (View.ld x0 r0_1) (View.ld x0 r0_2) (View.ld x1 r0_3) (View.ld x2 r0_4) (View.ld x0 r0_0) x
      = blockOut x0 x1 x2 (r0_0.emb x) := by
  obtain ⟨u, r, e, rfl⟩ : ∃ (u : Fin 1) (r : Fin 4096) (e : Fin 128), x = ix3 u r e := ⟨x 0, x 1, x 2, eq_ix3 x⟩
  rw [emb_agent0]
  exact rows_apply x0 x1 x2 (View.ld x0 r0_0) 0 (ld_agent0 x0) shapeCasts_S4096x128_S1x4096x128 shapeCasts_S1x4096x128_S4096x128 bitsLt_bf16_f32 u r e

/-- Agent 1's store. -/
theorem piece1 (x0 : Vec Ideal S3x4096x128 .f32) (x1 : Vec Ideal S128x128 .f32) (x2 : Vec Ideal S1x128 .f32)
    (x : S1x4096x128.Idx) :
    k0_pay1 (F := Ideal) (k0_pay4 (View.ld x1 r0_3)) (k0_pay5 (View.ld x2 r0_4)) (k0_pay7 (View.ld x0 r0_1))
        (k0_pay8 (View.ld x0 r0_0) (View.ld x0 r0_1) (View.ld x0 r0_2) (View.ld x0 r0_1))
        (constant (F := Ideal) S4096x128 .f32 0x00000000#32) x
      = blockOut x0 x1 x2 (r0_1.emb x) := by
  obtain ⟨u, r, e, rfl⟩ : ∃ (u : Fin 1) (r : Fin 4096) (e : Fin 128), x = ix3 u r e := ⟨x 0, x 1, x 2, eq_ix3 x⟩
  rw [emb_agent1]
  exact rows_apply x0 x1 x2 (View.ld x0 r0_1) 1 (ld_agent1 x0) shapeCasts_S4096x128_S1x4096x128 shapeCasts_S1x4096x128_S4096x128 bitsLt_bf16_f32 u r e

/-- Agent 2's store. -/
theorem piece2 (x0 : Vec Ideal S3x4096x128 .f32) (x1 : Vec Ideal S128x128 .f32) (x2 : Vec Ideal S1x128 .f32)
    (x : S1x4096x128.Idx) :
    k0_pay2 (F := Ideal) (k0_pay3 (View.ld x0 r0_0) (View.ld x0 r0_1) (View.ld x0 r0_2)) (k0_pay4 (View.ld x1 r0_3))
        (k0_pay5 (View.ld x2 r0_4)) (View.ld x0 r0_2) x
      = blockOut x0 x1 x2 (r0_2.emb x) := by
  obtain ⟨u, r, e, rfl⟩ : ∃ (u : Fin 1) (r : Fin 4096) (e : Fin 128), x = ix3 u r e := ⟨x 0, x 1, x 2, eq_ix3 x⟩
  rw [emb_agent2]
  exact rows_apply x0 x1 x2 (View.ld x0 r0_2) 2 (ld_agent2 x0) shapeCasts_S4096x128_S1x4096x128 shapeCasts_S1x4096x128_S4096x128 bitsLt_bf16_f32 u r e

/-- THE OUTPUT BLOCK after the body: the three stores tile it, and each is the restriction of `blockOut`. -/
theorem block_eq (x0 : Vec Ideal S3x4096x128 .f32) (x1 : Vec Ideal S128x128 .f32) (x2 : Vec Ideal S1x128 .f32) :
    out0_3 (F := Ideal) x0 x1 x2 = blockOut x0 x1 x2 := by
  funext y
  unfold out0_3
  refine View.canon_apply_of_pieces (Val := Elt Ideal) (e := .f32) (blockOut x0 x1 x2) _ ?_ y (cover0_3 _ _ _ y)
  intro p hp
  simp only [List.mem_cons, List.not_mem_nil, or_false] at hp
  rcases hp with rfl | rfl | rfl
  · exact fun x => piece2 x0 x1 x2 x
  · exact fun x => piece1 x0 x1 x2 x
  · exact fun x => piece0 x0 x1 x2 x

end Cert.KernelIdeal.BlockValue

end
-- ==== Proof.ArrayValue.lean ====
/-
  From blocks to the whole result array.

  The grid has 128 points; point `t` fetches rows `4096 t … 4096 t + 4095` of the three agents' states (all
  three agents, all 128 features), the whole weight matrix and the whole bias row, and writes back the same
  rows of the result. The body leaves `Message.out 4096` of the fetched blocks (`BlockValue.block_eq`); a
  row's result depends on that row only (`Message.outAt_rows`), so what point `t` writes back is block `t` of
  `Message.out 524288` of the whole arrays (`flushed_eq`). Row `p` lies in the block of point `p / 4096`, so the
  blocks cover the array (`cover`), and the array ends holding that function (`final`). The bias reaches the
  kernel as one row [1,128]: the host's reshape of the argument [128], read back at a feature by `bias_row`.
-/
import proofs.«141589_j60421599920764_2_alg».proof.Proof.Gen.KernelIdeal.Value
import proofs.«141589_j60421599920764_2_alg».proof.Proof.BlockValue
import proofs.«141589_j60421599920764_2_alg».proof.Proof.Message
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

/-- Point `t`'s block of the states and of the result is block `(0, t, 0)`; the weights' and the bias row's is
    block `(0, 0)` at every point (decided over the 128 points). -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

theorem point_lt (t : Fin cfg0.N) : t.val < 128 := lt_of_lt_of_eq t.isLt N_0

theorem row_lt (t : Fin cfg0.N) (r : Fin 4096) : t.val * 4096 + r.val < 524288 := by
  have := point_lt t; have := r.isLt; omega

/-! ## The input blocks at a point, read off the arrays -/

/-- Row `r` of the states' block at point `t` is row `4096 t + r` of the states. -/
theorem states_block (c : Dev nD) (t : Fin cfg0.N) (a : Fin 3) (r : Fin 4096) (k : Fin 128) :
    iblk m c 0 t (ix3 a r k) = V m c main_arg0 (ix3 a (⟨t.val * 4096 + r.val, row_lt t r⟩ : Fin 524288) k) := by
  show V m c main_arg0 (((cfg0.win 0).blk t).view.emb (ix3 a r k)) = _
  refine congrArg (V m c main_arg0) (funext fun d => Fin.ext ?_)
  obtain ⟨e0, e1, e2, -⟩ := idx_facts t
  match d with
  | ⟨0, _⟩ => show win0_0.index t (0 : Fin 3) * 3 + 1 * a.val = a.val; omega
  | ⟨1, _⟩ => show win0_0.index t (1 : Fin 3) * 4096 + 1 * r.val = t.val * 4096 + r.val; omega
  | ⟨2, _⟩ => show win0_0.index t (2 : Fin 3) * 128 + 1 * k.val = k.val; omega

/-- The weights' block at every point is the whole matrix. -/
theorem weights_block (c : Dev nD) (t : Fin cfg0.N) (k e : Fin 128) :
    iblk m c 1 t (ix2 k e) = V m c main_arg1 (ix2 k e) := by
  show V m c main_arg1 (((cfg0.win 1).blk t).view.emb (ix2 k e)) = _
  refine congrArg (V m c main_arg1) (funext fun d => Fin.ext ?_)
  obtain ⟨-, -, -, e3, e4, -⟩ := idx_facts t
  match d with
  | ⟨0, _⟩ => show win0_1.index t (0 : Fin 2) * 128 + 1 * k.val = k.val; omega
  | ⟨1, _⟩ => show win0_1.index t (1 : Fin 2) * 128 + 1 * e.val = e.val; omega

/-- The bias block at every point is the whole row. -/
theorem bias_block (c : Dev nD) (t : Fin cfg0.N) (u : Fin 1) (e : Fin 128) :
    iblk m c 2 t (ix2 u e) = V m c main_v0 (ix2 u e) := by
  show V m c main_v0 (((cfg0.win 2).blk t).view.emb (ix2 u e)) = _
  refine congrArg (V m c main_v0) (funext fun d => Fin.ext ?_)
  obtain ⟨-, -, -, -, -, e5, e6, -⟩ := idx_facts t
  match d with
  | ⟨0, _⟩ => show win0_2.index t (0 : Fin 2) * 1 + 1 * u.val = u.val; omega
  | ⟨1, _⟩ => show win0_2.index t (1 : Fin 2) * 128 + 1 * e.val = e.val; omega

/-- The bias row as the region finds it is the host's reshape of the bias argument: at feature `e`, the argument there. -/
theorem bias_row (c : Dev nD) (u : Fin 1) (e : Fin 128) :
    V m c main_v0 (ix2 u e) = m ((c : Thread nD τ).loc main_arg2) (ix1 e) := by
  have h : (V m c main_v0 : S1x128.Idx → EReal)
      = shapeCast S1x128 (m ((c : Thread nD τ).loc main_arg2)) shapeCasts_S128_S1x128 := by
    dsimp only [Gen.V, Gen.hostOps0]; after_results; rfl
  rw [h, shapeCast_a_1a_apply]

/-! ## What a point writes back -/

/-- The result array as one function of the arrays the region finds. -/
abbrev arrayOut (c : Dev nD) : Buf (Elt Ideal) ((c : Thread nD τ).loc main_v1) :=
  Cert.Message.out 524288 (V m c main_arg0) (V m c main_arg1) (fun e => V m c main_v0 (ix2 (0 : Fin 1) e))

/-- Where block `t` of the result sits in the array. -/
theorem result_block (t : Fin cfg0.N) (a : Fin 3) (r : Fin 4096) (e : Fin 128) :
    ((cfg0.win 3).blk t).view.emb (ix3 a r e) = ix3 a (⟨t.val * 4096 + r.val, row_lt t r⟩ : Fin 524288) e := by
  refine funext fun d => Fin.ext ?_
  obtain ⟨-, -, -, -, -, -, -, e7, e8, e9⟩ := idx_facts t
  match d with
  | ⟨0, _⟩ => show win0_3.index t (0 : Fin 3) * 3 + 1 * a.val = a.val; omega
  | ⟨1, _⟩ => show win0_3.index t (1 : Fin 3) * 4096 + 1 * r.val = t.val * 4096 + r.val; omega
  | ⟨2, _⟩ => show win0_3.index t (2 : Fin 3) * 128 + 1 * e.val = e.val; omega

/-- WHAT POINT `t` WRITES BACK is block `t` of `arrayOut`. -/
theorem flushed_eq (c : Dev nD) (t : Fin cfg0.N) :
    (dats m 0 c).flushed 3 t = ((cfg0.win 3).blk t).view.read (Elt Ideal) (arrayOut m c) := by
  rw [Cert.KernelIdeal.Value.flushed3, Cert.KernelIdeal.BlockValue.block_eq]
  funext j
  obtain ⟨a, r, e, rfl⟩ : ∃ (a : Fin 3) (r : Fin 4096) (e : Fin 128), j = ix3 a r e := ⟨j 0, j 1, j 2, eq_ix3 j⟩
  show Cert.Message.outAt 4096 (iblk m c 0 t) (iblk m c 1 t) (fun e => iblk m c 2 t (ix2 (0 : Fin 1) e)) a r e
    = arrayOut m c (((cfg0.win 3).blk t).view.emb (ix3 a r e))
  rw [result_block t a r e]
  exact Cert.Message.outAt_rows 4096 524288 (iblk m c 0 t) (V m c main_arg0) (iblk m c 1 t) (V m c main_arg1)
    (fun e => iblk m c 2 t (ix2 (0 : Fin 1) e)) (fun e => V m c main_v0 (ix2 (0 : Fin 1) e)) r
    (⟨t.val * 4096 + r.val, row_lt t r⟩ : Fin 524288)
    (fun a k => states_block m c t a r k) (fun k e => weights_block m c t k e) (fun e => bias_block m c t 0 e) a e

/-! ## The cover -/

/-- An index of the array is in point `t`'s block iff each coordinate is in the block's range on its axis. -/
theorem mem_blk (t : Fin cfg0.N) (i : S3x524288x128.Idx) :
    i ∈ ((cfg0.win 3).blk t).view.set ↔ ∀ a : Fin 3, win0_3.index t a * S3x4096x128.size a ≤ (i a).val
      ∧ (i a).val < win0_3.index t a * S3x4096x128.size a + S3x4096x128.size a := by
  show i ∈ ((View.whole main_v1).slice (win0_3.rect t)).set ↔ _
  rw [View.set_slice_whole, Rect.mem_set_unit]
  exact Iff.rfl

/-- Row `p` is written back by point `p / 4096`. -/
theorem cover (i : S3x524288x128.Idx) :
    ∃ t : Fin cfg0.N, (cfg0.win 3).flush t = true ∧ i ∈ ((cfg0.win 3).blk t).view.set := by
  have hi0 : (i 0).val < 3 := (i 0).isLt
  have hi1 : (i 1).val < 524288 := (i 1).isLt
  have hi2 : (i 2).val < 128 := (i 2).isLt
  have hN : cfg0.N = 128 := N_0
  have hq : (i 1).val / 4096 < cfg0.N := by rw [hN]; omega
  refine ⟨⟨(i 1).val / 4096, hq⟩, flush0_3 _, ?_⟩
  rw [mem_blk]
  obtain ⟨-, -, -, -, -, -, -, e7, e8, e9⟩ := idx_facts ⟨(i 1).val / 4096, hq⟩
  have e8' : win0_3.index ⟨(i 1).val / 4096, hq⟩ (1 : Fin 3) = (i 1).val / 4096 := e8
  intro a
  match a with
  | ⟨0, _⟩ =>
    show win0_3.index ⟨(i 1).val / 4096, hq⟩ (0 : Fin 3) * 3 ≤ (i 0).val
      ∧ (i 0).val < win0_3.index ⟨(i 1).val / 4096, hq⟩ (0 : Fin 3) * 3 + 3
    omega
  | ⟨1, _⟩ =>
    show win0_3.index ⟨(i 1).val / 4096, hq⟩ (1 : Fin 3) * 4096 ≤ (i 1).val
      ∧ (i 1).val < win0_3.index ⟨(i 1).val / 4096, hq⟩ (1 : Fin 3) * 4096 + 4096
    omega
  | ⟨2, _⟩ =>
    show win0_3.index ⟨(i 1).val / 4096, hq⟩ (2 : Fin 3) * 128 ≤ (i 2).val
      ∧ (i 2).val < win0_3.index ⟨(i 1).val / 4096, hq⟩ (2 : Fin 3) * 128 + 128
    omega

/-! ## The array after the run, and the run -/

/-- The arrays the region finds are the arguments as launched (the bias through the host's reshape). -/
theorem arrayOut_eq (c : Dev nD) :
    arrayOut m c = Cert.Message.out 524288 (m ((c : Thread nD τ).loc main_arg0)) (m ((c : Thread nD τ).loc main_arg1))
      (fun e => m ((c : Thread nD τ).loc main_arg2) (ix1 e)) := by
  unfold arrayOut
  rw [V_main_arg0, V_main_arg1]
  exact congrArg (Cert.Message.out 524288 (m ((c : Thread nD τ).loc main_arg0)) (m ((c : Thread nD τ).loc main_arg1)))
    (funext fun e => bias_row m c 0 e)

/-- THE RESULT ARRAY after the run is the message-passing function of the three arguments. -/
theorem final (c : Dev nD) :
    (dats m 0 c).arrAt 3 cfg0.N
      = Cert.Message.out 524288 (m ((c : Thread nD τ).loc main_arg0)) (m ((c : Thread nD τ).loc main_arg1))
          (fun e => m ((c : Thread nD τ).loc main_arg2) (ix1 e)) :=
  ((dats m 0 c).arrAt_eq_of_cover 3 (arrayOut m c) (fun t _ => flushed_eq m c t) cover).trans (arrayOut_eq m c)

/-- The kernel's run: every weakly fair execution terminates with the result at that function and the arguments unchanged. -/
theorem run : θ_run defs (onTc (τ := τ) (main (F := Ideal))) ⟨m, fun _ => 0, ρ⟩ fun r => ∀ c : Dev nD,
      r.2.mem ((c : Thread nD τ).loc main_v1)
        = Cert.Message.out 524288 (m ((c : Thread nD τ).loc main_arg0)) (m ((c : Thread nD τ).loc main_arg1))
            (fun e => m ((c : Thread nD τ).loc main_arg2) (ix1 e))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  The kernel and its reference compute one function on the extended reals.

  For three agents holding states `X a p k` (agent, row, feature), weights `W` and a bias `b`, both programs return
      out a p e = X a p e + ((∑ k, ((X 0 p k + X 1 p k + X 2 p k) - X a p k) * (1/2) * W k e) + b e)
  (`Message.out`): each agent's state plus a dense layer of the mean of the other two agents' states.

  The reference spells the three-agent sum as a reduction started from zero, halves by dividing by 2, and takes one
  matrix product over all rows; read index by index it is `Message.out` (`ReferenceValue.result_eq`: the sum from
  zero is the left-to-right sum, and the quotient by the number 2 is the product with the number 1/2 at every
  extended real). The kernel walks the rows in 128 blocks of 4096; at each block it writes, agent by agent, the same
  expression with the product taken into a zero accumulator (`BlockValue.block_eq`), and since a row's result depends
  on that row alone the blocks assemble to `Message.out` of the whole arrays (`ArrayValue.final`). Rounding the
  product's operands to a narrower format is the identity on the extended reals, so nothing else separates the two.
  No law used here needs the inputs finite; the precondition is not opened.

  The three frames are the generated frame runs (the reference's is its generated run with the result dropped), and
  the kernel's idealization rewrote nothing, so `preserves` is `True`.
-/
import proofs.«141589_j60421599920764_2_alg».proof.Defs
import proofs.«141589_j60421599920764_2_alg».proof.Proof.Gen.Kernel
import proofs.«141589_j60421599920764_2_alg».proof.Proof.Gen.Kernel.Skeleton
import proofs.«141589_j60421599920764_2_alg».proof.Proof.Gen.Kernel.Launch
import proofs.«141589_j60421599920764_2_alg».proof.Proof.Gen.Kernel.Points
import proofs.«141589_j60421599920764_2_alg».proof.Proof.Gen.Kernel.Frame
import proofs.«141589_j60421599920764_2_alg».proof.Proof.Gen.KernelIdeal
import proofs.«141589_j60421599920764_2_alg».proof.Proof.Gen.KernelIdeal.Skeleton
import proofs.«141589_j60421599920764_2_alg».proof.Proof.Gen.KernelIdeal.Launch
import proofs.«141589_j60421599920764_2_alg».proof.Proof.Gen.KernelIdeal.Points
import proofs.«141589_j60421599920764_2_alg».proof.Proof.Gen.KernelIdeal.Frame
import proofs.«141589_j60421599920764_2_alg».proof.Proof.Gen.ReferenceIdeal
import proofs.«141589_j60421599920764_2_alg».proof.Proof.Gen.KernelIdeal.Value
import proofs.«141589_j60421599920764_2_alg».proof.Proof.Gen.ReferenceIdeal.Run
import proofs.«141589_j60421599920764_2_alg».proof.Proof.Gen.ReferenceIdeal.Read
import proofs.«141589_j60421599920764_2_alg».proof.Proof.Gen.Pre_finite_inputs
import proofs.«141589_j60421599920764_2_alg».proof.Proof.Message
import proofs.«141589_j60421599920764_2_alg».proof.Proof.ReferenceValue
import proofs.«141589_j60421599920764_2_alg».proof.Proof.BlockValue
import proofs.«141589_j60421599920764_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the three arguments, the kernel's result array and the reference's both end at
    `Message.out` of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
